-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S8192x4096, .bf16⟩
  | .hbm, ⟨17, _⟩ => ⟨S4096x4096, .bf16⟩
  | .hbm, ⟨18, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each control case of the kernel's body leaves in the accumulator it carries between grid points, and in
  the output block at the last point of a run.
-/
import proofs.«159529_j61658550502125_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.MatValue

open Cert.KernelIdeal Cert.KernelIdeal.Gen

variable {F : FTy → Type} [FloatOps F]

/-- A store or load at offsets `[0, 0]` covers the whole 1024 × 1024 block. -/
theorem hz : (![0, 0] : Fin 2 → Nat) = fun _ => 0 := funext fun a => by fin_cases a <;> rfl

/-- At a middle point of a run (neither reset nor write-back) the accumulator holding `xs0` is left at one step over it:
    `xs0 + x0 · x1` of the point's two input blocks — the body's one store into it, whose loads read the whole buffers. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x1024) hz]

/-- At the first point of a run the accumulator is stored with the zero block, read back, and left at one step over
    that: `0 + x0 · x1`, whatever it held before. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- At the last point of a run the output block is stored with the accumulator read back after its step:
    `xs0 + x0 · x1` as well. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-- At the last point of a run the accumulator itself is left at the same step over `xs0`. -/
theorem scratch_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

end Cert.KernelIdeal.MatValue

end
-- ==== Proof.Step.lean ====
/-
  One step of the kernel's accumulation read at an entry, over the extended reals: the body leaves
  `acc + x · w` in the accumulator, whose entry `(p, q)` is `acc[p, q] + ∑ₖ x[p, k] · w[k, q]` — the matrix unit's
  product into a zero accumulator is the plain sum over the contracted coordinate — and the reset block is zero.
-/
import proofs.«159529_j61658550502125_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.MatValue

open Cert.KernelIdeal Cert.KernelIdeal.Gen Idealize.ShloMosaic Idealize.ShloMosaic.ValueIdx

/-- The block the reset stores is zero everywhere. -/
theorem pay1_apply (y : S1024x1024.Idx) : k0_pay1 (F := Ideal) y = 0 := by
  unfold k0_pay1
  simp only [shapeCast_self]
  show Ideal.ofBits .f32 0x00000000#32 = 0
  exact Ideal.ofBits_zero_f32

/-- The left operand's index at result entry `j` and contraction position `k`: row `j 0`, … -/
theorem lhs_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … column the contraction position. -/
theorem lhs_col (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
/-- The right operand's: row the contraction position, … -/
theorem rhs_row (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
/-- … column `j 1`. -/
theorem rhs_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- So at entry `(p, q)` and the `k`-th contraction position the left operand is read at `(p, k)` … -/
theorem lhs_at (p q k : Fin 1024) :
    dot_S1024x1024_S1024x1024_S1024x1024_1_0_0_1_n_n.lhsIdx (ix2 p q) ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  funext a
  apply Fin.ext
  match a with
  | ⟨0, _⟩ => exact lhs_row _ _
  | ⟨1, _⟩ => exact (lhs_col _ _).trans hk

/-- … and the right one at `(k, q)`. -/
theorem rhs_at (p q k : Fin 1024) :
    dot_S1024x1024_S1024x1024_S1024x1024_1_0_0_1_n_n.rhsIdx (ix2 p q) ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  funext a
  apply Fin.ext
  match a with
  | ⟨0, _⟩ => exact (rhs_row _ _).trans hk
  | ⟨1, _⟩ => exact rhs_col _ _

/-- The block product into a zero accumulator, at an entry: the sum over the contracted coordinate. -/
theorem matmul_at (x w : FVec Ideal S1024x1024 .bf16) (p q : Fin 1024) :
    matmul (F := Ideal) dot_S1024x1024_S1024x1024_S1024x1024_1_0_0_1_n_n none x w (constant S1024x1024 .f32 0x00000000#32) (ix2 p q)
      = ∑ k : Fin 1024, x (ix2 p k) * w (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [lhs_at, rhs_at]

/-- One step at an entry: what the accumulator held plus the block product's entry. -/
theorem pay2_apply (acc : Vec Ideal S1024x1024 .f32) (x w : Vec Ideal S1024x1024 .bf16) (p q : Fin 1024) :
    k0_pay2 (F := Ideal) acc x w (ix2 p q) = acc (ix2 p q) + ∑ k : Fin 1024, x (ix2 p k) * w (ix2 k q) := by
  unfold k0_pay2
  simp only [shapeCast_self]
  exact congrArg (acc (ix2 p q) + ·) (matmul_at x w p q)

end Cert.KernelIdeal.MatValue

end
-- ==== Proof.SumSplit.lean ====
/-
  Finite sums over consecutive naturals, cut into consecutive runs: the contraction index of a product of
  matrices with 4096 columns, read as four runs of 1024.
-/
import Idealize.ShloMosaic.PureOps.Ideal

open scoped BigOperators

namespace Cert.SumSplit

/-- A sum over the naturals below 4096 is the sum, over the four runs `s = 0, 1, 2, 3`, of the sums over the 1024
    naturals `1024 s + k` of each run: every `n < 4096` is `1024 (n / 1024) + n % 1024` in exactly one way. -/
theorem sum_runs {M : Type*} [AddCommMonoid M] (f : ℕ → M) :
    ∑ k : Fin 4096, f k.val = ∑ s ∈ Finset.range 4, ∑ k : Fin 1024, f (1024 * s + k.val) := by
  rw [Finset.sum_range (fun s => ∑ k : Fin 1024, f (1024 * s + k.val))]
  show ∑ k : Fin (4 * 1024), f k.val = _
  rw [← Equiv.sum_comp (finProdFinEquiv : Fin 4 × Fin 1024 ≃ Fin (4 * 1024)) (fun k => f k.val),
    Fintype.sum_prod_type]
  refine Finset.sum_congr rfl fun s _ => Finset.sum_congr rfl fun k _ => ?_
  congr 1
  show k.val + 1024 * s.val = 1024 * s.val + k.val
  omega

end Cert.SumSplit
-- ==== Proof.Spec.lean ====
/-
  The result both programs compute, as one function of the two argument arrays over the extended reals:
  a product of an [8192, 4096] array with a [4096, 4096] one, each entry the sum over the 4096 values of the
  contracted coordinate. Arrays are read at natural coordinates (`rd`), so that a block's entry and the whole
  array's entry are the same expression of their coordinates and no bound proof travels with an index.
-/
import Idealize.ShloMosaic.PureOps.Ideal
import Idealize.ShloMosaic.Lib.ValueIdx
import proofs.«159529_j61658550502125_1_alg».proof.Proof.SumSplit

noncomputable section

open scoped BigOperators

namespace Cert.Spec

open Idealize.ShloMosaic Idealize.ShloMosaic.ValueIdx

/-- A rank-2 array read at row `r`, column `c`; zero outside the array (never consulted there). -/
def rd {n0 n1 : ℕ} (A : (⟨2, ![n0, n1]⟩ : Shape).Idx → EReal) (r c : ℕ) : EReal :=
  if h : r < n0 ∧ c < n1 then A (ix2 ⟨r, h.1⟩ ⟨c, h.2⟩) else 0

/-- An entry of the array is `rd` at its coordinates. -/
theorem rd_eq {n0 n1 : ℕ} (A : (⟨2, ![n0, n1]⟩ : Shape).Idx → EReal) (j : (⟨2, ![n0, n1]⟩ : Shape).Idx) (r c : ℕ)
    (h0 : (j 0).val = r) (h1 : (j 1).val = c) : A j = rd A r c := by
  subst h0 h1
  unfold rd
  rw [dif_pos ⟨idx2_lt0 j, idx2_lt1 j⟩]
  exact congrArg A (eq_ix2 j)

/-- The product `X · W`: entry `(b, o)` is `∑ₖ X[b, k] · W[k, o]`. -/
def prod (X : (⟨2, ![8192, 4096]⟩ : Shape).Idx → EReal) (W : (⟨2, ![4096, 4096]⟩ : Shape).Idx → EReal) :
    (⟨2, ![8192, 4096]⟩ : Shape).Idx → EReal :=
  fun i => ∑ k : Fin 4096, rd X (i 0).val k.val * rd W k.val (i 1).val

/-- The product with the second factor transposed, `X · Wᵀ`: entry `(b, o)` is `∑ₖ X[b, k] · W[o, k]`. -/
def prodT (X : (⟨2, ![8192, 4096]⟩ : Shape).Idx → EReal) (W : (⟨2, ![4096, 4096]⟩ : Shape).Idx → EReal) :
    (⟨2, ![8192, 4096]⟩ : Shape).Idx → EReal :=
  fun i => ∑ k : Fin 4096, rd X (i 0).val k.val * rd W (i 1).val k.val

/-- For a symmetric `W` the two products are one function, term by term. -/
theorem prodT_eq_prod (X : (⟨2, ![8192, 4096]⟩ : Shape).Idx → EReal) (W : (⟨2, ![4096, 4096]⟩ : Shape).Idx → EReal)
    (hW : ∀ a b : ℕ, rd W a b = rd W b a) : prodT X W = prod X W := by
  funext i
  unfold prodT prod
  exact Finset.sum_congr rfl fun k _ => by rw [hW]

/-- The product's entry, with the contracted coordinate cut into four runs of 1024, summed from zero: the
    order in which a kernel accumulates it block by block (addition of extended reals is commutative and
    associative, so the grouping changes nothing). -/
theorem prod_runs (X : (⟨2, ![8192, 4096]⟩ : Shape).Idx → EReal) (W : (⟨2, ![4096, 4096]⟩ : Shape).Idx → EReal)
    (i : (⟨2, ![8192, 4096]⟩ : Shape).Idx) :
    prod X W i = 0 + ∑ s ∈ Finset.range 4, ∑ k : Fin 1024,
      rd X (i 0).val (1024 * s + k.val) * rd W (1024 * s + k.val) (i 1).val := by
  unfold prod
  rw [zero_add]
  exact SumSplit.sum_runs (fun n => rd X (i 0).val n * rd W n (i 1).val)

end Cert.Spec

end
-- ==== Proof.Blocks.lean ====
/-
  The grid and its blocks. Point `t` of the 8 × 4 × 4 grid is `(i, j, k) = (t / 16, t / 4 % 4, t % 4)`; there the
  kernel reads block `(i, k)` of the activations and block `(k, j)` of the masked weights, and works on block
  `(i, j)` of the result; a block's entry `(p, q)` sits in its array at `1024 · (block index) + (p, q)`.
  The two arrays the region reads are written by the host operations before it: the activations are the first
  argument (a change of float format is the identity on the extended reals) and the weights are the masked
  second argument.
-/
import proofs.«159529_j61658550502125_1_alg».proof.Proof.Gen.KernelIdeal.Value
import proofs.«159529_j61658550502125_1_alg».proof.Proof.Gen.ReferenceIdeal.Read
import proofs.«159529_j61658550502125_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.MatValue

open Cert.KernelIdeal Cert.KernelIdeal.Gen Idealize.ShloMosaic.ValueIdx Cert.Spec

variable (m : (ℓ : Loc nD τ sig) → Buf (Elt Ideal) ℓ)

/-- The activations as the region finds them. -/
abbrev acts (c : Dev nD) : (⟨2, ![8192, 4096]⟩ : Shape).Idx → EReal := V m c main_v12
/-- The masked weights as the region finds them. -/
abbrev wts (c : Dev nD) : (⟨2, ![4096, 4096]⟩ : Shape).Idx → EReal := V m c main_v13

/-- The printed index maps in closed form, decided over the grid's 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The activations' block at point `t`, entry `(p, k)`. -/
theorem iblk0_apply (c : Dev nD) (t : Fin cfg0.N) (p k : Fin 1024) :
    (iblk m c 0 t : Vec Ideal S1024x1024 .bf16) (ix2 p k)
      = rd (acts m c) (1024 * (t.val / 16) + p.val) (1024 * (t.val % 4) + k.val) := by
  unfold iblk
  rw [View.read_apply]
  show V m c main_v12 (((cfg0.win 0).blk t).view.emb (ix2 p k)) = _
  refine rd_eq (V m c main_v12) _ _ _ ?_ ?_
  · show win0_0.index t (0 : Fin 2) * 1024 + 1 * p.val = _
    rw [(idx_facts t).1]; omega
  · show win0_0.index t (1 : Fin 2) * 1024 + 1 * k.val = _
    rw [(idx_facts t).2.1]; omega

/-- The masked weights' block at point `t`, entry `(k, q)`. -/
theorem iblk1_apply (c : Dev nD) (t : Fin cfg0.N) (k q : Fin 1024) :
    (iblk m c 1 t : Vec Ideal S1024x1024 .bf16) (ix2 k q)
      = rd (wts m c) (1024 * (t.val % 4) + k.val) (1024 * (t.val / 4 % 4) + q.val) := by
  unfold iblk
  rw [View.read_apply]
  show V m c main_v13 (((cfg0.win 1).blk t).view.emb (ix2 k q)) = _
  refine rd_eq (V m c main_v13) _ _ _ ?_ ?_
  · show win0_1.index t (0 : Fin 2) * 1024 + 1 * k.val = _
    rw [(idx_facts t).2.2.1]; omega
  · show win0_1.index t (1 : Fin 2) * 1024 + 1 * q.val = _
    rw [(idx_facts t).2.2.2.1]; omega

/-- The activations are the first argument. -/
theorem acts_eq (c : Dev nD) : acts m c = m ((c : Thread nD τ).loc main_arg0) := by
  show (V m c main_v12 : S8192x4096.Idx → EReal) = _
  dsimp only [V, hostOps0]
  after_results
  rfl

/-- The weights are the masked second argument: the same operations, in the same order, as the reference applies. -/
theorem wts_eq (c : Dev nD) :
    wts m c = Cert.ReferenceIdeal.Read.val_main_v11 (F := Ideal) (m ((c : Thread nD τ).loc main_arg1)) := by
  show (V m c main_v13 : S4096x4096.Idx → EReal) = _
  dsimp only [V, hostOps0]
  after_results
  rfl

end Cert.KernelIdeal.MatValue

end
-- ==== Proof.Fold.lean ====
/-
  The accumulation over a run of four grid points, and the result array. At the first point of a run
  (`t % 4 = 0`) the accumulator is reset to zero and the point's block product added; at each later point the
  point's block product is added to what the point before left; at the last (`t % 4 = 3`) the accumulator is
  copied to the output block, which is written back. So block `(i, j)` of the result holds
  `0 + ∑ₛ ∑ₖ X[·, 1024 s + k] · W[1024 s + k, ·]` over the four runs `s` of the contracted coordinate: the
  product's entry, and the blocks `(i, j)` tile the array.
-/
import proofs.«159529_j61658550502125_1_alg».proof.Proof.Pieces
import proofs.«159529_j61658550502125_1_alg».proof.Proof.Step
import proofs.«159529_j61658550502125_1_alg».proof.Proof.Blocks

noncomputable section

open Idealize.ShloMosaic Idealize.ShloMosaic.TcCoe Idealize.SL.Sem
open Idealize.ShloMosaic.Pipeline (Dat)
open scoped BigOperators

namespace Cert.KernelIdeal.MatValue

open Cert.KernelIdeal Cert.KernelIdeal.Gen Idealize.ShloMosaic.ValueIdx Cert.Spec

variable (m : (ℓ : Loc nD τ sig) → Buf (Elt Ideal) ℓ) (ρ : Dev nD → PrngReg)

/-- Point `n`'s addend at entry `y` of its block: the product of the point's activations block with its weights
    block, read off the whole arrays (a function of every natural `n`; only the grid's points are used). -/
def addend (c : Dev nD) (n : ℕ) (y : S1024x1024.Idx) : EReal :=
  ∑ k : Fin 1024, rd (acts m c) (1024 * (n / 16) + (y 0).val) (1024 * (n % 4) + k.val)
    * rd (wts m c) (1024 * (n % 4) + k.val) (1024 * (n / 4 % 4) + (y 1).val)

/-- One step over the point's blocks, at an entry. -/
theorem step_at (c : Dev nD) (t : Fin cfg0.N) (acc : Vec Ideal S1024x1024 .f32) (p q : Fin 1024) :
    k0_pay2 (F := Ideal) acc (iblk m c 0 t) (iblk m c 1 t) (ix2 p q) = acc (ix2 p q) + addend m c t.val (ix2 p q) := by
  refine (pay2_apply acc (iblk m c 0 t) (iblk m c 1 t) p q).trans ?_
  refine congrArg (acc (ix2 p q) + ·) (Finset.sum_congr rfl fun k _ => ?_)
  exact congrArg₂ (· * ·) (iblk0_apply m c t p k) (iblk1_apply m c t k q)

/-- What point `n` leaves in the accumulator, over what the point before left (`acc`), at an entry: the reset
    discards `acc`, every other point adds to it. -/
theorem scAt_apply (c : Dev nD) (n : ℕ) (hb : n < cfg0.N) (acc : Vec Ideal S1024x1024 .f32) (y : S1024x1024.Idx) :
    Value.scAt0_0 m c n hb acc y = (if n % 4 = 0 then 0 else acc y) + addend m c n y := by
  obtain ⟨p, q, rfl⟩ : ∃ (p q : Fin 1024), y = ix2 p q := ⟨y 0, y 1, eq_ix2 y⟩
  unfold Value.scAt0_0
  by_cases h0 : n % 4 = 0
  · have h1 : ¬n % 4 = 3 := by omega
    rw [dif_pos h0, dif_neg h1, if_pos h0]
    refine (congrFun (scratch_A (F := Ideal) c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) scM0_0 (Memref.isWhole_whole _) ((hcond0_0 ⟨n, hb⟩).mpr h0)
      (fun h => h1 ((hcond0_1 ⟨n, hb⟩).mp h)) (iblk m c 0 ⟨n, hb⟩) (iblk m c 1 ⟨n, hb⟩)) (ix2 p q)).trans ?_
    refine (step_at m c ⟨n, hb⟩ (k0_pay1 (F := Ideal)) p q).trans ?_
    rw [pay1_apply]
  · rw [dif_neg h0, if_neg h0]
    by_cases h1 : n % 4 = 3
    · rw [dif_pos h1]
      refine (congrFun (scratch_C (F := Ideal) c (grid0.coords ⟨n, hb⟩) (ms0_0 ⟨n, hb⟩) (hs0_0 ⟨n, hb⟩) (ms0_1 ⟨n, hb⟩) (hs0_1 ⟨n, hb⟩)
        (ms0_2 ⟨n, hb⟩) (hs0_2 ⟨n, hb⟩) scM0_0 (Memref.isWhole_whole _) (fun h => h0 ((hcond0_0 ⟨n, hb⟩).mp h))
        ((hcond0_1 ⟨n, hb⟩).mpr h1) (iblk m c 0 ⟨n, hb⟩) (iblk m c 1 ⟨n, hb⟩) acc) (ix2 p q)).trans ?_
      exact step_at m c ⟨n, hb⟩ acc p q
    · rw [dif_neg h1]
      refine (congrFun (scratch_B (F := Ideal) c (grid0.coords ⟨n, hb⟩) (ms0_0 ⟨n, hb⟩) (hs0_0 ⟨n, hb⟩) (ms0_1 ⟨n, hb⟩) (hs0_1 ⟨n, hb⟩)
        (ms0_2 ⟨n, hb⟩) (hs0_2 ⟨n, hb⟩) scM0_0 (Memref.isWhole_whole _) (fun h => h0 ((hcond0_0 ⟨n, hb⟩).mp h))
        (fun h => h1 ((hcond0_1 ⟨n, hb⟩).mp h)) (iblk m c 0 ⟨n, hb⟩) (iblk m c 1 ⟨n, hb⟩) acc) (ix2 p q)).trans ?_
      exact step_at m c ⟨n, hb⟩ acc p q

/-- The accumulator after point `t`: zero plus the addends of the run's points up to `t` (the generated fold,
    unrolled at an entry). -/
theorem acc_at (c : Dev nD) (t : Fin cfg0.N) (y : S1024x1024.Idx) :
    (outsAt0 m c t.val t.isLt).2 y
      = 0 + ∑ s ∈ Finset.range (t.val % 4 + 1), addend m c (4 * (t.val / 4) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (4 * (t.val / 4)) 3
    (fun h i => by rw [scAt_apply, if_pos (by omega)])
    (fun n h acc i hlt hle => by rw [scAt_apply, if_neg (by omega)])
    (t.val % 4) (by omega) _ y

/-- At the last point of a run the output block is the accumulator: both are the same step over what the point
    before left. -/
theorem out_eq_acc (c : Dev nD) (t : Fin cfg0.N) (h0 : ¬t.val % 4 = 0) (h3 : t.val % 4 = 3) :
    (outsAt0 m c t.val t.isLt).1 = (outsAt0 m c t.val t.isLt).2 := by
  rw [outsAt0_C m c t h0 h3]
  dsimp only
  exact (out_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2).trans
    (scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h3) (iblk m c 0 t) (iblk m c 1 t)
      (outsAt0 m c (t.val - 1) (Nat.lt_of_le_of_lt (Nat.sub_le _ _) t.isLt)).2).symm

/-- The result array's contents: the product of the activations with the masked weights. -/
abbrev result (c : Dev nD) : (⟨2, ![8192, 4096]⟩ : Shape).Idx → EReal := prod (acts m c) (wts m c)

/-- What a point that writes back writes is its block of the product. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  rw [Value.flushed2, out_eq_acc m c t h0 h3]
  funext y
  show (outsAt0 m c t.val t.isLt).2 y = result m c (((cfg0.win 2).blk t).view.emb y)
  have r0 : ((((cfg0.win 2).blk t).view.emb y) 0).val = 1024 * (t.val / 16) + (y 0).val := by
    show win0_2.index t (0 : Fin 2) * 1024 + 1 * (y 0).val = _
    rw [(idx_facts t).2.2.2.2.1]; omega
  have r1 : ((((cfg0.win 2).blk t).view.emb y) 1).val = 1024 * (t.val / 4 % 4) + (y 1).val := by
    show win0_2.index t (1 : Fin 2) * 1024 + 1 * (y 1).val = _
    rw [(idx_facts t).2.2.2.2.2]; omega
  rw [acc_at, h3]
  refine Eq.trans ?_ (prod_runs (acts m c) (wts m c) (((cfg0.win 2).blk t).view.emb y)).symm
  rw [r0, r1]
  refine congrArg (0 + ·) (Finset.sum_congr rfl fun s hs => ?_)
  have hs' : s < 4 := Finset.mem_range.mp hs
  have e1 : (4 * (t.val / 4) + s) / 16 = t.val / 16 := by omega
  have e2 : (4 * (t.val / 4) + s) % 4 = s := by omega
  have e3 : (4 * (t.val / 4) + s) / 4 % 4 = t.val / 4 % 4 := by omega
  unfold addend
  rw [e1, e2, e3]

/-- Every entry of the result lies in the block of a point that writes back: the last point of the run of
    its block `(i, j)`. -/
theorem cover (i : S8192x4096.Idx) : ∃ t : Fin cfg0.N, (cfg0.win 2).flush t = true ∧ i ∈ ((cfg0.win 2).blk t).view.set := by
  have hi0 : (i 0).val < 8192 := idx2_lt0 i
  have hi1 : (i 1).val < 4096 := idx2_lt1 i
  have hN : cfg0.N = 128 := N_0
  have hlt : 16 * ((i 0).val / 1024) + 4 * ((i 1).val / 1024) + 3 < cfg0.N := by rw [hN]; omega
  obtain ⟨t, ht⟩ : ∃ t : Fin cfg0.N, t.val = 16 * ((i 0).val / 1024) + 4 * ((i 1).val / 1024) + 3 := ⟨⟨_, hlt⟩, rfl⟩
  refine ⟨t, (flush0_2 t).mpr (by omega), ?_⟩
  show i ∈ ((View.whole main_v14).slice (win0_2.rect t)).set
  rw [View.set_slice_whole, Rect.mem_set_unit]
  intro a
  have e4 := (idx_facts t).2.2.2.2.1
  have e5 := (idx_facts t).2.2.2.2.2
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- So the result array ends holding the product. -/
theorem final (c : Dev nD) : (dats m 0 c).arrAt 2 cfg0.N = result m c :=
  (dats m 0 c).arrAt_eq_of_cover 2 (result m c) (flushed_eq m c) cover

/-- The kernel's run, read: the result array at the product of the first argument with the masked second
    argument, the arguments unchanged. -/
theorem run : θ_run defs (onTc (τ := τ) (main (F := Ideal))) ⟨m, fun _ => 0, ρ⟩ fun r => ∀ c : Dev nD,
      r.2.mem ((c : Thread nD τ).loc main_v14)
        = prod (m ((c : Thread nD τ).loc main_arg0))
            (Cert.ReferenceIdeal.Read.val_main_v11 (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show prod (acts m c) (wts m c) = _
      rw [acts_eq, wts_eq])), (h c).2⟩)
    (Value.run_blocks m ρ)

end Cert.KernelIdeal.MatValue

end
-- ==== Proof.Masked.lean ====
/-
  The masked weights both programs multiply by: `W` times the identity pattern, then times the 0/1 pattern of
  "absolute value above the threshold". Off the diagonal the identity pattern is 0, so the entry is
  `(W[a, b] · 0) · _ = 0` on the extended reals (where `x · 0 = 0` for every `x`, the infinities included): the
  masked matrix is diagonal, hence symmetric.
-/
import proofs.«159529_j61658550502125_1_alg».proof.Proof.Gen.ReferenceIdeal.Read
import proofs.«159529_j61658550502125_1_alg».proof.Proof.Spec

noncomputable section

namespace Cert.ReferenceIdeal.Masked

open Cert.ReferenceIdeal Cert.ReferenceIdeal.Gen Cert.ReferenceIdeal.Read
open Idealize.ShloMosaic Idealize.ShloMosaic.ValueIdx

/-- Distinct naturals below 4096 are distinct 32-bit words. -/
theorem word_ne (a b : ℕ) (ha : a < 4096) (hb : b < 4096) (h : a ≠ b) : BitVec.ofNat 32 a ≠ BitVec.ofNat 32 b := by
  intro e
  have e' := congrArg BitVec.toNat e
  simp only [BitVec.toNat_ofNat] at e'
  omega

/-- The identity pattern is 0 off the diagonal: row index plus zero is compared with the column index. -/
theorem eye_off (i : S4096x4096.Idx) (h : (i 0).val ≠ (i 1).val) : val_main_v5 (F := Ideal) i = 0 := by
  rw [val_main_v5_apply, val_main_v4_apply, val_main_v3_apply, val_main_v0_apply, val_main_v1_apply, val_main_v2_apply,
    val_main_c_apply]
  have hne := word_ne _ _ (idx2_lt0 i) (idx2_lt1 i) h
  have e : IntOp.cmpi .eq (IntOp.addi (BitVec.ofNat 32 (i 0).val) 0#32) (BitVec.ofNat 32 (i 1).val) = 0#1 := by
    show BitVec.ofBool (BitVec.ofNat 32 (i 0).val + 0#32 == BitVec.ofNat 32 (i 1).val) = 0#1
    rw [BitVec.add_zero, beq_eq_false_iff_ne.mpr hne]
    rfl
  rw [e]
  show (((0#1 : BitVec 1).toNat : ℝ) : EReal) = 0
  simp

/-- So the masked weights vanish off the diagonal. -/
theorem masked_off (W : S4096x4096.Idx → EReal) (i : S4096x4096.Idx) (h : (i 0).val ≠ (i 1).val) :
    val_main_v11 (F := Ideal) W i = 0 := by
  rw [val_main_v11_apply, val_main_v6_apply, eye_off i h]
  simp only [Ideal.mulf_def, mul_zero, zero_mul]

/-- The masked weights are symmetric: off the diagonal both entries are 0, on it they are one entry. -/
theorem masked_symm (W : S4096x4096.Idx → EReal) (a b : ℕ) :
    Cert.Spec.rd (val_main_v11 (F := Ideal) W) a b = Cert.Spec.rd (val_main_v11 (F := Ideal) W) b a := by
  by_cases hab : a = b
  · subst hab; rfl
  · unfold Cert.Spec.rd
    by_cases h : a < 4096 ∧ b < 4096
    · rw [dif_pos h, dif_pos ⟨h.2, h.1⟩, masked_off W _ hab, masked_off W _ (Ne.symm hab)]
    · rw [dif_neg h, dif_neg (fun h' => h ⟨h'.2, h'.1⟩)]

end Cert.ReferenceIdeal.Masked

end
-- ==== Proof.RefProd.lean ====
/-
  The reference's result: its `dot_general` contracts the activations' columns with the masked weights' COLUMNS,
  so entry `(b, o)` is `∑ₖ X[b, k] · W[o, k]`, the product with the masked weights transposed; the masked weights
  being symmetric (they are diagonal), that is the plain product the kernel accumulates.
-/
import proofs.«159529_j61658550502125_1_alg».proof.Proof.Masked

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Spec

/-- The reference's last stage is the product with the masked weights transposed … -/
theorem dot_eq_prodT (X : S8192x4096.Idx → EReal) (W : S4096x4096.Idx → EReal) :
    val_main_v12 (F := Ideal) X W = prodT X (val_main_v11 (F := Ideal) W) := by
  funext i
  rw [val_main_v12_apply]
  unfold prodT
  refine Finset.sum_congr rfl fun k _ => ?_
  exact congrArg₂ (· * ·) (rd_eq X _ _ _ rfl rfl) (rd_eq (val_main_v11 (F := Ideal) W) _ _ _ rfl rfl)

/-- … which, the masked weights being symmetric, is the plain product. -/
theorem result_eq (X : S8192x4096.Idx → EReal) (W : S4096x4096.Idx → EReal) :
    val_main_v12 (F := Ideal) X W = prod X (val_main_v11 (F := Ideal) W) :=
  (dot_eq_prodT X W).trans (prodT_eq_prod X _ (Cert.ReferenceIdeal.Masked.masked_symm W))

end Cert.ReferenceIdeal.RefValue

end
-- ==== Proof.lean ====
/-
  Equivalence, over the extended reals, of a tiled matrix-product kernel with its reference.

  Both programs first mask the [4096, 4096] weights `W`: times the identity pattern, then times the 0/1 pattern of
  "absolute value above 0.001" — the same operations with the same literals on both sides, so the masked weights
  `Wm` are one function of `W` for both. The kernel computes `x · Wm` on an 8 × 4 × 4 grid of 1024 × 1024 blocks:
  for each result block `(i, j)` the four points `k = 0 … 3` reset an accumulator to zero and add the block
  products `x[i, k] · Wm[k, j]` in turn, and the last copies it out; so entry `(b, o)` is
  `0 + ∑ₛ ∑ₖ x[b, 1024 s + k] · Wm[1024 s + k, o]`, the sum over all 4096 values of the contracted coordinate
  (addition of extended reals is commutative and associative: the grouping into four runs changes nothing, and a
  change of float format is the identity). The reference computes `x · Wmᵀ`: entry `(b, o)` is
  `∑ₖ x[b, k] · Wm[o, k]`. Off the diagonal `Wm[a, b] = (W[a, b] · 0) · _ = 0` for EVERY extended real `W[a, b]`
  (`x · 0 = 0` there, the infinities included), so `Wm` is diagonal, hence symmetric, and the two sums agree term
  by term. No step uses that the inputs are finite.

  The frames are the generated ones (the reference's is its generated run with the result dropped); the
  idealization rewrote nothing, so `preserves` is `True`.
-/
import proofs.«159529_j61658550502125_1_alg».proof.Defs
import proofs.«159529_j61658550502125_1_alg».proof.Proof.Gen.Kernel
import proofs.«159529_j61658550502125_1_alg».proof.Proof.Gen.Kernel.Frame
import proofs.«159529_j61658550502125_1_alg».proof.Proof.Gen.KernelIdeal
import proofs.«159529_j61658550502125_1_alg».proof.Proof.Gen.KernelIdeal.Frame
import proofs.«159529_j61658550502125_1_alg».proof.Proof.Gen.KernelIdeal.Value
import proofs.«159529_j61658550502125_1_alg».proof.Proof.Gen.ReferenceIdeal
import proofs.«159529_j61658550502125_1_alg».proof.Proof.Gen.ReferenceIdeal.Run
import proofs.«159529_j61658550502125_1_alg».proof.Proof.Gen.ReferenceIdeal.Read
import proofs.«159529_j61658550502125_1_alg».proof.Proof.Gen.Pre_finite_inputs
import proofs.«159529_j61658550502125_1_alg».proof.Proof.Fold
import proofs.«159529_j61658550502125_1_alg».proof.Proof.RefProd
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the product of the first argument with the masked second argument: the kernel by its
    accumulation over the grid, the reference by the symmetry of the masked weights. -/
theorem algebraic : Cert.algebraic_KernelIdeal_ReferenceIdeal := by
  intro m ρ m' ρ' _ hagree
  refine ⟨_, Cert.KernelIdeal.MatValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
